-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  reducesTo_S_S_d : S_.ReducesTo [] S_

variable [Facts]

def fn_part1 {F : FTy → Type} [FloatOps F] (main_arg4 : FVec F S_ .f32) (main_v13 : IVec S_ 1) (main_v16 : IVec S64x512x512 1) : IVec S_ 1 :=
  let main_c_5 : IVec S_ 1 := constantI S_ 1 1#1
  let main_v17 : IVec S_ 1 := (fun x v => Host.reduce IntOp.andi x v reducesTo_S64x512x512_S_d0_1_2 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S64x512x512 .f32) (main_arg1 : FVec F S64x512x512 .f32) (main_arg2 : FVec F S64x512x512 .f32) (main_arg3 : FVec F S64x512x512 .f32) (main_arg4 : FVec F S_ .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S64x512x512 .f32 := Host.absf main_arg2
  let main_cst_2 : FVec F S_ .f32 := constant S_ .f32 0x7F800000#32
  let main_v10 : FVec F S64x512x512 .f32 := broadcastInDim S64x512x512 ![] bcast_S_S64x512x512 main_cst_2
  let main_v11 : IVec S64x512x512 1 := cmpf .olt main_v9 main_v10
  let main_c_3 : IVec S_ 1 := constantI S_ 1 1#1
  let main_v12 : IVec S_ 1 := (fun x v => Host.reduce IntOp.andi x v reducesTo_S64x512x512_S_d0_1_2 h_S_) main_v11 main_c_3
  let main_v13 : IVec S_ 1 := andi main_v8 main_v12
  let main_v14 : FVec F S64x512x512 .f32 := Host.absf main_arg3
  let main_cst_4 : FVec F S_ .f32 := constant S_ .f32 0x7F800000#32
  let main_v15 : FVec F S64x512x512 .f32 := broadcastInDim S64x512x512 ![] bcast_S_S64x512x512 main_cst_4
  let main_v16 : IVec S64x512x512 1 := cmpf .olt main_v14 main_v15
  fn_part1 (F := F) main_arg4 main_v13 main_v16
-- ==== Kernel.lean ====
abbrev S64x512x512 : Shape := ⟨3, ![64, 512, 512]⟩
abbrev S_ : Shape := ⟨0, ![]⟩
abbrev S1x512x512 : Shape := ⟨3, ![1, 512, 512]⟩
abbrev S512x512 : Shape := ⟨2, ![512, 512]⟩

abbrev nBuf : Space → Nat
  | .hbm => 7
  | .vmem => 12
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S64x512x512, .f32⟩
  | .hbm, ⟨3, _⟩ => ⟨S64x512x512, .f32⟩
  | .hbm, ⟨4, _⟩ => ⟨S_, .f32⟩
  | .hbm, ⟨5, _⟩ => ⟨S64x512x512, .f32⟩
  | .hbm, ⟨6, _⟩ => ⟨S64x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x512_p1_0_S512x512 : S512x512.Transposes [1, 0] S512x512
  shapeCasts_S512x512_S1x512x512 : S512x512.ShapeCasts S1x512x512
  dot_S512x512_S512x512_S512x512_0_0_1_1_n_n_wf : DotDims.WF S512x512 S512x512 S512x512 [0] [0] [1] [1] [] []
  dot_S512x512_S512x512_S512x512_1_0_0_1_n_n_wf : DotDims.WF S512x512 S512x512 S512x512 [1] [0] [0] [1] [] []
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S64x512x512.size a
  hwx0_0 : ∀ i : grid0.Coords, EltTy.bits .f32 = 32 ∨ (Rect.block (s := S64x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S64x512x512.size a
  hwx0_2 : ∀ i : grid0.Coords, EltTy.bits .f32 = 32 ∨ (Rect.block (s := S64x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S64x512x512.size a
  hwx0_3 : ∀ i : grid0.Coords, EltTy.bits .f32 = 32 ∨ (Rect.block (s := S64x512x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S64x512x512.size a
  hwx0_4 : ∀ i : grid0.Coords, EltTy.bits .f32 = 32 ∨ (Rect.block (s := S64x512x512) S1x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S64x512x512.size a
  hwx0_5 : ∀ i : grid0.Coords, EltTy.bits .f32 = 32 ∨ (Rect.block (s := S64x512x512) S1x512x512.size (cc0_transform_5 i) (hinb0_5 i)).WholeWords (EltTy.packing .f32)

variable [Facts₀]

def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S64x512x512, .f32⟩
  | .hbm, ⟨3, _⟩ => ⟨S64x512x512, .f32⟩
  | .hbm, ⟨4, _⟩ => ⟨S_, .f32⟩
  | .hbm, ⟨5, _⟩ => ⟨S64x512x512, .f32⟩
  | .hbm, ⟨6, _⟩ => ⟨S64x512x512, .f32⟩
  | .hbm, ⟨7, _⟩ => ⟨S_, .f32⟩
  | .hbm, ⟨8, _⟩ => ⟨S64x512x512, .f32⟩
  | .hbm, ⟨9, _⟩ => ⟨S64x512x512, .f32⟩
  | .hbm, ⟨10, _⟩ => ⟨S64x512x512, .f32⟩
  | .hbm, ⟨11, _⟩ => ⟨S64x512x512, .f32⟩
  | .hbm, ⟨12, _⟩ => ⟨S64x512x512, .f32⟩
  | .hbm, ⟨13, _⟩ => ⟨S64x512x512, .f32⟩
  | .hbm, ⟨14, _⟩ => ⟨S64x512x512, .f32⟩
  | .hbm, ⟨15, _⟩ => ⟨S64x512x512, .f32⟩
  | .hbm, ⟨16, _⟩ => ⟨S64x512x512, .f32⟩
  | .hbm, ⟨17, _⟩ => ⟨S64x512x512, .f32⟩
  | .hbm, ⟨18, _⟩ => ⟨S64x512x512, .f32⟩
  | .hbm, ⟨19, _⟩ => ⟨S64x512x512, .f32⟩
  | .hbm, ⟨20, _⟩ => ⟨S64x512x512, .f32⟩
  | .hbm, ⟨21, _⟩ => ⟨S64x512x512, .f32⟩
  | .hbm, ⟨22, _⟩ => ⟨S64x512x512, .f32⟩
  | .hbm, ⟨23, _⟩ => ⟨S64x512x512, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  transposes_S64x512x512_S64x512x512_0_2_1 : S64x512x512.Transposes [0, 2, 1] S64x512x512
  bcast_S_S64x512x512 : S_.BroadcastsInDim S64x512x512 (![] : Fin 0 → Fin S64x512x512.rank)
  dot_S64x512x512_S64x512x512_S64x512x512_2_1_1_2_0_0_wf : DotDims.WF S64x512x512 S64x512x512 S64x512x512 [2] [1] [1] [2] [0] [0]

variable [Facts₀]

def dot_S64x512x512_S64x512x512_S64x512x512_2_1_1_2_0_0 : DotDims S64x512x512 S64x512x512 S64x512x512 where
  lhsContracting := [2]
  rhsContracting := [1]
  lhsNonContracting := [1]
  rhsNonContracting := [2]
  lhsBatch := [0]
  rhsBatch := [0]
  wf := dot_S64x512x512_S64x512x512_S64x512x512_2_1_1_2_0_0_wf

class Facts : Prop extends Facts₀ where

variable [Facts]
-- ==== Proof.LibERealMatmul.lean ====
import Mathlib.Data.EReal.Basic
import Mathlib.Data.EReal.Operations
import Mathlib.Algebra.BigOperators.Fin
import Mathlib.Data.Fintype.BigOperators
import Mathlib.Logic.Equiv.Fin.Basic

/-!
# Finite extended reals, reassociation of a triple matrix product, blocked sums

Multiplication does not distribute over addition on all of `EReal` (for instance
`(1 + -1) * ⊤ = 0` while `1 * ⊤ + -1 * ⊤ = ⊤ + ⊥ = ⊥`), so the identity
`a · (h · w) = (a · h) · w` for matrices over `EReal` needs every entry to be finite.
Addition alone is commutative and associative on `EReal`, so splitting a sum over an
index range into consecutive blocks needs no hypothesis.
-/

namespace Cert.LibERealMatmul

open Finset

/-- The coercion `ℝ → EReal` commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih =>
    rw [Finset.sum_insert ha, Finset.sum_insert ha, EReal.coe_add, ih]

/-- An extended real is finite when it is the coercion of a real number. -/
def IsFin (x : EReal) : Prop := ∃ r : ℝ, x = (r : EReal)

/-- Finite means different from both infinities. -/
theorem isFin_iff (x : EReal) : IsFin x ↔ x ≠ ⊤ ∧ x ≠ ⊥ := by
  constructor
  · rintro ⟨r, rfl⟩
    exact ⟨EReal.coe_ne_top r, EReal.coe_ne_bot r⟩
  · rintro ⟨h1, h2⟩
    exact ⟨x.toReal, (EReal.coe_toReal h1 h2).symm⟩

/-- Zero is finite. -/
theorem isFin_zero : IsFin 0 := ⟨0, EReal.coe_zero.symm⟩

/-- One is finite. -/
theorem isFin_one : IsFin 1 := ⟨1, rfl⟩

/-- The coercion of a real number is finite. -/
theorem isFin_coe (r : ℝ) : IsFin (r : EReal) := ⟨r, rfl⟩

/-- The sum of two finite extended reals is finite. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The product of two finite extended reals is finite. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The negation of a finite extended real is finite. -/
theorem IsFin.neg {x : EReal} (hx : IsFin x) : IsFin (-x) := by
  obtain ⟨a, rfl⟩ := hx
  exact ⟨-a, (EReal.coe_neg a).symm⟩

/-- The difference of two finite extended reals is finite. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The maximum of two finite extended reals is finite. -/
theorem IsFin.max {x y : EReal} (hx : IsFin x) (hy : IsFin y) : IsFin (x ⊔ y) := by
  obtain ⟨a, rfl⟩ := hx
  obtain ⟨b, rfl⟩ := hy
  exact ⟨a ⊔ b, (EReal.coe_strictMono.monotone.map_max).symm⟩

/-- The minimum of two finite extended reals is finite. -/
theorem IsFin.min {x y : EReal} (hx : IsFin x) (hy : IsFin y) : IsFin (x ⊓ y) := by
  obtain ⟨a, rfl⟩ := hx
  obtain ⟨b, rfl⟩ := hy
  exact ⟨a ⊓ b, (EReal.coe_strictMono.monotone.map_min).symm⟩

/-- A finite sum of finite extended reals is finite. -/
theorem IsFin.sum {ι : Type*} (s : Finset ι) (f : ι → EReal) (hf : ∀ i ∈ s, IsFin (f i)) :
    IsFin (∑ i ∈ s, f i) := by
  classical
  induction s using Finset.induction_on with
  | empty => simpa using isFin_zero
  | insert a s ha ih =>
    rw [Finset.sum_insert ha]
    exact (hf a (Finset.mem_insert_self a s)).add
      (ih fun i hi => hf i (Finset.mem_insert_of_mem hi))

/-- A sum over a whole finite type of finite extended reals is finite. -/
theorem IsFin.sum_univ {ι : Type*} [Fintype ι] (f : ι → EReal) (hf : ∀ i, IsFin (f i)) :
    IsFin (∑ i, f i) :=
  IsFin.sum Finset.univ f fun i _ => hf i

/-- Reassociation of a vector–matrix–vector product over finite extended reals:
`∑ i, a i * (∑ j, h i j * w j) = ∑ j, (∑ i, a i * h i j) * w j` when every `a i`,
`h i j` and `w j` is finite.  (Read with `a` a fixed row of the left matrix and `w` a
fixed column of the right matrix, this is `A · (H · W) = (A · H) · W` entry by entry.) -/
theorem matmul_assoc {ι κ : Type*} [Fintype ι] [Fintype κ]
    (a : ι → EReal) (h : ι → κ → EReal) (w : κ → EReal)
    (ha : ∀ i, IsFin (a i)) (hh : ∀ i j, IsFin (h i j)) (hw : ∀ j, IsFin (w j)) :
    ∑ i, a i * (∑ j, h i j * w j) = ∑ j, (∑ i, a i * h i j) * w j := by
  choose a' ha' using ha
  choose h' hh' using hh
  choose w' hw' using hw
  obtain rfl : a = fun i => ((a' i : ℝ) : EReal) := funext ha'
  obtain rfl : h = fun i j => ((h' i j : ℝ) : EReal) := funext fun i => funext (hh' i)
  obtain rfl : w = fun j => ((w' j : ℝ) : EReal) := funext hw'
  simp only [← EReal.coe_mul, ← coe_sum]
  congr 1
  simp only [Finset.mul_sum, Finset.sum_mul]
  rw [Finset.sum_comm]
  simp only [mul_assoc]

/-- One block: adding a sum to a zero accumulator gives the sum. -/
theorem blocked_sum1 {n : ℕ} (f : Fin n → EReal) : 0 + ∑ k, f k = ∑ k, f k :=
  zero_add _

/-- Three blocks: accumulating the three block sums `∑ k, f 0 k`, `∑ k, f 1 k`, `∑ k, f 2 k`
one after the other onto a zero accumulator gives the sum over all pairs
`(block, position in block)`. -/
theorem blocked_sum3 (n : ℕ) (f : Fin 3 → Fin n → EReal) :
    ((0 + ∑ k, f 0 k) + ∑ k, f 1 k) + ∑ k, f 2 k = ∑ p : Fin 3 × Fin n, f p.1 p.2 := by
  rw [Fintype.sum_prod_type', Fin.sum_univ_three, zero_add]

/-- Any number `m` of blocks of length `n`: the sum over `Fin (m * n)` is the sum over blocks
`i : Fin m` of the sum over positions `k : Fin n`, where block `i`, position `k` is the flat
index `i * n + k`. -/
theorem blocked_sum_fin (m n : ℕ) (g : Fin (m * n) → EReal)
    (hlt : ∀ (i : Fin m) (k : Fin n), (i : ℕ) * n + (k : ℕ) < m * n) :
    ∑ i : Fin m, ∑ k : Fin n, g ⟨(i : ℕ) * n + (k : ℕ), hlt i k⟩ = ∑ j : Fin (m * n), g j := by
  rw [← (finProdFinEquiv (m := m) (n := n)).sum_comp g, Fintype.sum_prod_type]
  refine Finset.sum_congr rfl fun i _ => Finset.sum_congr rfl fun k _ => ?_
  congr 1
  apply Fin.ext
  simp [finProdFinEquiv, Nat.mul_comm, Nat.add_comm]

/-- Three blocks of length `n` over the flat index range `Fin (3 * n)`: block `b`
(`b = 0, 1, 2`), position `k : Fin n` is the flat index `b * n + k`, written literally as
`0 * n + k`, `1 * n + k`, `2 * n + k`.  Accumulating the three block sums one after the other
onto a zero accumulator gives the sum over the whole range. -/
theorem blocked_sum3_fin (n : ℕ) (g : Fin (3 * n) → EReal) :
    ((0 + ∑ k : Fin n, g ⟨0 * n + (k : ℕ), by omega⟩)
        + ∑ k : Fin n, g ⟨1 * n + (k : ℕ), by omega⟩)
        + ∑ k : Fin n, g ⟨2 * n + (k : ℕ), by omega⟩ = ∑ j : Fin (3 * n), g j := by
  have hlt : ∀ (i : Fin 3) (k : Fin n), (i : ℕ) * n + (k : ℕ) < 3 * n := by
    intro i k
    have hi : (i : ℕ) ≤ 2 := by omega
    have := Nat.mul_le_mul_right n hi
    omega
  rw [← blocked_sum_fin 3 n g hlt, Fin.sum_univ_three, zero_add]
  rfl

end Cert.LibERealMatmul
-- ==== Proof.Field.lean ====
/-
  The augmented vector field, index by index.

  For each batch `b` the four arguments are 512 × 512 matrices `u`, `lam`, `A`, `G`. With
  `Ω = ½ (A − Aᵀ)` (the skew part of `A`) the two results are

    du   = G + u · (Ω − uᵀ · G)
    dlam = lam · A + (C + Cᵀ) · u,   C = lam · Gᵀ,

  every product a sum over the one contracted coordinate. `duAt` and `dlamAt` spell these sums out at the
  batch `b`, row `n` and column `q`; `du` and `dlam` are the same read at an index of the whole array.

  The first result has a second arrangement, `u · Ω + (G − u · (uᵀ · G))`. On the extended reals a product
  does not distribute over a difference at the infinities, so the two arrangements agree only where the entries
  are finite: `sum_mul_sub_rearrange` is that law, proved by moving to the reals.
-/
import Idealize.ShloMosaic.PureOps.Ideal
import Idealize.ShloMosaic.Lib.ValueIdx
import proofs.«125087_j79233556677072_2_alg».proof.Proof.LibERealMatmul

noncomputable section

open scoped BigOperators

namespace Cert.OdeField

open Idealize.ShloMosaic Idealize.ShloMosaic.ValueIdx Cert.LibERealMatmul

/-- A batch of 64 matrices of 512 × 512 extended reals. -/
abbrev Arr : Type := (⟨3, ![64, 512, 512]⟩ : Shape).Idx → EReal

/-- The binary32 pattern of one half, read as an extended real. -/
def half : EReal := Ideal.ofBits .f32 0x3F000000#32

/-- The pattern denotes the real number 1/2. -/
theorem half_eq : half = ((1 / 2 : ℝ) : EReal) := by
  unfold half
  simp [Ideal.ofBits, Ideal.ieee, -EReal.coe_mul]; norm_num

/-- So it is finite. -/
theorem isFin_half : IsFin half := ⟨1 / 2, half_eq⟩

/-- `du` at batch `b`, row `n`, column `q`: `G[n,q] + Σ_p u[n,p] · (½ (A[p,q] − A[q,p]) − Σ_k u[k,p] · G[k,q])`. -/
def duAt (u A G : Arr) (b : Fin 64) (n q : Fin 512) : EReal :=
  G (ix3 b n q) + ∑ p : Fin 512, u (ix3 b n p) *
    (half * (A (ix3 b p q) - A (ix3 b q p)) - ∑ k : Fin 512, u (ix3 b k p) * G (ix3 b k q))

/-- The first result as one array. -/
def du (u A G : Arr) : Arr := fun i => duAt u A G (i 0) (i 1) (i 2)

/-- `dlam` at batch `b`, row `n`, column `q`:
    `Σ_k lam[n,k] · A[k,q] + Σ_j (Σ_k lam[n,k] · G[j,k] + Σ_k lam[j,k] · G[n,k]) · u[j,q]`. -/
def dlamAt (u lam A G : Arr) (b : Fin 64) (n q : Fin 512) : EReal :=
  (∑ k : Fin 512, lam (ix3 b n k) * A (ix3 b k q))
    + ∑ j : Fin 512, ((∑ k : Fin 512, lam (ix3 b n k) * G (ix3 b j k))
        + ∑ k : Fin 512, lam (ix3 b j k) * G (ix3 b n k)) * u (ix3 b j q)

/-- The second result as one array. -/
def dlam (u lam A G : Arr) : Arr := fun i => dlamAt u lam A G (i 0) (i 1) (i 2)

theorem du_ix3 (u A G : Arr) (b : Fin 64) (n q : Fin 512) : du u A G (ix3 b n q) = duAt u A G b n q := rfl

theorem dlam_ix3 (u lam A G : Arr) (b : Fin 64) (n q : Fin 512) :
    dlam u lam A G (ix3 b n q) = dlamAt u lam A G b n q := rfl

/-- Over finite entries, `Σ a·s + (g − Σ a·w) = g + Σ a·(s − w)`: the product distributes over the difference
    term by term, the sum over the difference of the summands, and the three remaining terms commute. -/
theorem sum_mul_sub_rearrange {ι : Type*} [Fintype ι] (g : EReal) (a s w : ι → EReal)
    (hg : IsFin g) (ha : ∀ p, IsFin (a p)) (hs : ∀ p, IsFin (s p)) (hw : ∀ p, IsFin (w p)) :
    (∑ p, a p * s p) + (g - ∑ p, a p * w p) = g + ∑ p, a p * (s p - w p) := by
  obtain ⟨g', rfl⟩ := hg
  choose a' ha' using ha
  choose s' hs' using hs
  choose w' hw' using hw
  obtain rfl : a = fun p => ((a' p : ℝ) : EReal) := funext ha'
  obtain rfl : s = fun p => ((s' p : ℝ) : EReal) := funext hs'
  obtain rfl : w = fun p => ((w' p : ℝ) : EReal) := funext hw'
  simp only [← EReal.coe_mul, ← EReal.coe_sub, ← coe_sum, ← EReal.coe_add]
  congr 1
  simp only [mul_sub, Finset.sum_sub_distrib]
  ring

end Cert.OdeField

end
-- ==== Proof.Finite.lean ====
/-
  Every entry of the four array arguments is a real number.

  The precondition is the conjunction, over the five float arguments, of "every entry x has |x| < +∞", each
  conjunct an "and"-reduction over all axes of the array of one-bit comparison results, and it is claimed to be 1.
  A conjunction that is 1 has every conjunct 1; a reduction by "and" over all axes that is 1 met a 1 at every
  index; so at each index i of each array, the comparison |x i| < +∞ came out 1. On the extended reals |x| is
  max x (−x): at x = +∞ it is +∞, at x = −∞ it is again +∞, and neither is below +∞. Hence x i is neither
  infinity, that is, a real number. The fifth argument, a scalar, is not needed.
-/
import Idealize.ShloMosaic.Lib.ValueIdx
import Idealize.ShloMosaic.Lib.ReduceAll
import Idealize.ShloMosaic.PureOps.Ideal.Laws
import proofs.«125087_j79233556677072_2_alg».proof.Pre_finite_inputs
import proofs.«125087_j79233556677072_2_alg».proof.Proof.LibERealMatmul

noncomputable section

namespace Cert.OdeFinite

open Idealize.ShloMosaic Idealize.ShloMosaic.ValueIdx Cert.LibERealMatmul Cert.Pre_finite_inputs

/-- The scalar shape has one index: there is no axis to differ on. -/
instance : Subsingleton S_.Idx := ⟨fun a b => funext fun d => d.elim0⟩

/-- The binary32 pattern with exponent field all ones and fraction zero, sign clear, denotes +∞. -/
theorem inf_eq : Ideal.ofBits .f32 0x7F800000#32 = (⊤ : EReal) := by
  simp [Ideal.ofBits, Ideal.ieee]

/-- An extended real whose absolute value max x (−x) is strictly below +∞ is a real number: at either
    infinity the maximum is +∞ itself. -/
theorem isFin_of_abs_lt_top (x : EReal) (h : Ideal.cmp .olt (max x (-x)) ⊤ = 1#1) : IsFin x := by
  induction x using EReal.rec with
  | bot => simp [Ideal.cmp] at h
  | coe r => exact ⟨r, rfl⟩
  | top => simp [Ideal.cmp] at h

/-- A pointwise "and" of one-bit arrays is 1 at an index exactly when both arrays are 1 there. -/
theorem andi_apply_eq_one {s : Shape} (a b : IVec s 1) (j : s.Idx) : andi a b j = 1#1 ↔ a j = 1#1 ∧ b j = 1#1 :=
  IntOp.andi_eq_one

/-- One conjunct read back: if the "and" over all axes of the comparisons |x i| < +∞ is 1, every x i is real.
    The reduction gives the comparison at the index i; the broadcast scalar read at i is the pattern of +∞. -/
theorem isFin_of_all (x : FVec Ideal S64x512x512 .f32) (init : IVec S_ 1)
    (hb : S_.BroadcastsInDim S64x512x512 (![] : Fin 0 → Fin S64x512x512.rank))
    (hr : S64x512x512.ReducesTo [0, 1, 2] S_) (hu : 0 < S_.numel)
    (e : Host.reduce IntOp.andi
      (cmpf .olt (Host.absf x) (broadcastInDim S64x512x512 ![] hb (constant S_ .f32 0x7F800000#32))) init hr hu ix0 = 1#1)
    (i : S64x512x512.Idx) : IsFin (x i) := by
  have hi := Host.reduce_andi_all _ _ hr hu ix0 e i
  exact isFin_of_abs_lt_top (x i) (by rw [← inf_eq]; exact hi)

/-- The precondition gives: every entry of each of the four arrays is a real number. -/
theorem finite_of_pre [Cert.Pre_finite_inputs.Facts]
    (x0 x1 x2 x3 : FVec Ideal Cert.Pre_finite_inputs.S64x512x512 .f32) (x4 : FVec Ideal Cert.Pre_finite_inputs.S_ .f32)
    (h : Cert.Pre_finite_inputs.fn (F := Ideal) x0 x1 x2 x3 x4 = fun _ => 1#1) :
    (∀ i, IsFin (x0 i)) ∧ (∀ i, IsFin (x1 i)) ∧ (∀ i, IsFin (x2 i)) ∧ (∀ i, IsFin (x3 i)) := by
  -- the claim at the result's one index, with the chain of operations in view
  have e := congrFun h ValueIdx.ix0
  dsimp only [Cert.Pre_finite_inputs.fn, Cert.Pre_finite_inputs.fn_part1] at e
  -- the conjunction of five is 1: each conjunct is
  simp only [andi_apply_eq_one] at e
  obtain ⟨⟨⟨⟨e0, e1⟩, e2⟩, e3⟩, -⟩ := e
  exact ⟨isFin_of_all x0 _ _ _ _ e0, isFin_of_all x1 _ _ _ _ e1, isFin_of_all x2 _ _ _ _ e2,
    isFin_of_all x3 _ _ _ _ e3⟩

end Cert.OdeFinite

end
-- ==== Proof.RefIs.lean ====
/-
  The reference program's two results are the augmented vector field.

  The reference is read one operation at a time: a transpose reads its operand with the last two coordinates
  exchanged, a batched matrix product is the sum over the contracted coordinate of left entry times right entry,
  and the pointwise operations act entry by entry. Reading the first result at batch `b`, row `n`, column `q`
  gives

    Σ_p u[n,p] · (½ (A[p,q] − A[q,p]))  +  (G[n,q] − Σ_p u[n,p] · Σ_k u[k,p] · G[k,q]),

  the arrangement `u · Ω + (G − u · (uᵀ · G))`; over finite entries it equals `G + u · (Ω − uᵀ · G)`, which is
  `du`. Reading the second result gives

    Σ_k lam[n,k] · A[k,q]  +  Σ_j (Σ_k lam[n,k] · G[j,k] + Σ_k G[n,k] · lam[j,k]) · u[j,q],

  which is `dlam` once the factors of the last inner product are exchanged; no finiteness is needed there.
-/
import proofs.«125087_j79233556677072_2_alg».proof.Proof.Gen.ReferenceIdeal.Read
import proofs.«125087_j79233556677072_2_alg».proof.Proof.Field
import Idealize.ShloMosaic.Lib.ValueIdx

noncomputable section

open scoped BigOperators

namespace Cert.OdeRef

open Idealize.ShloMosaic Idealize.ShloMosaic.ValueIdx Cert.ReferenceIdeal Cert.ReferenceIdeal.Gen
  Cert.ReferenceIdeal.Read Cert.OdeField Cert.LibERealMatmul

/-! ### The three ways an index is moved -/

/-- A transpose of the last two coordinates reads `(b, n, q)` at `(b, q, n)`. -/
theorem tidx_ix3 (b : Fin 64) (n q : Fin 512) : idx_main_v0 (ix3 b n q) = ix3 b q n :=
  funext fun a => Fin.ext (by match a with | ⟨0, _⟩ => rfl | ⟨1, _⟩ => rfl | ⟨2, _⟩ => rfl)

/-- A product's left factor is read at the result's row and the contracted coordinate. -/
theorem lidx_ix3 (b : Fin 64) (n q k : Fin 512) : lidx_main_v4 (ix3 b n q) k = ix3 b n k :=
  funext fun a => Fin.ext (by match a with | ⟨0, _⟩ => rfl | ⟨1, _⟩ => rfl | ⟨2, _⟩ => rfl)

/-- A product's right factor is read at the contracted coordinate and the result's column. -/
theorem ridx_ix3 (b : Fin 64) (n q k : Fin 512) : ridx_main_v4 (ix3 b n q) k = ix3 b k q :=
  funext fun a => Fin.ext (by match a with | ⟨0, _⟩ => rfl | ⟨1, _⟩ => rfl | ⟨2, _⟩ => rfl)

/-! ### The first result, one operation at a time -/

/-- `Aᵀ[n,q] = A[q,n]`. -/
theorem v0_at (A : Arr) (b : Fin 64) (n q : Fin 512) :
    val_main_v0 (F := Ideal) A (ix3 b n q) = A (ix3 b q n) := by
  rw [val_main_v0_apply]; exact congrArg A (tidx_ix3 b n q)

/-- `Ω[n,q] = ½ (A[n,q] − A[q,n])`. -/
theorem v3_at (A : Arr) (b : Fin 64) (n q : Fin 512) :
    val_main_v3 (F := Ideal) A (ix3 b n q) = half * (A (ix3 b n q) - A (ix3 b q n)) := by
  rw [val_main_v3_apply, val_main_v2_apply, val_main_cst_apply, val_main_v1_apply, v0_at]
  rfl

/-- `(u · Ω)[n,q] = Σ_p u[n,p] · Ω[p,q]`. -/
theorem v4_at (u A : Arr) (b : Fin 64) (n q : Fin 512) :
    val_main_v4 (F := Ideal) u A (ix3 b n q)
      = ∑ p : Fin 512, u (ix3 b n p) * (half * (A (ix3 b p q) - A (ix3 b q p))) := by
  rw [val_main_v4_apply]
  refine Finset.sum_congr rfl fun p _ => ?_
  rw [show lidx_main_v4 (ix3 b n q) p = ix3 b n p from lidx_ix3 b n q p,
    show ridx_main_v4 (ix3 b n q) p = ix3 b p q from ridx_ix3 b n q p, v3_at]

/-- `uᵀ[p,k] = u[k,p]`. -/
theorem v5_at (u : Arr) (b : Fin 64) (p k : Fin 512) :
    val_main_v5 (F := Ideal) u (ix3 b p k) = u (ix3 b k p) := by
  rw [val_main_v5_apply]; exact congrArg u (tidx_ix3 b p k)

/-- `(uᵀ · G)[p,q] = Σ_k u[k,p] · G[k,q]`. -/
theorem v6_at (u G : Arr) (b : Fin 64) (p q : Fin 512) :
    val_main_v6 (F := Ideal) u G (ix3 b p q) = ∑ k : Fin 512, u (ix3 b k p) * G (ix3 b k q) := by
  rw [val_main_v6_apply]
  refine Finset.sum_congr rfl fun k _ => ?_
  rw [show lidx_main_v6 (ix3 b p q) k = ix3 b p k from lidx_ix3 b p q k,
    show ridx_main_v6 (ix3 b p q) k = ix3 b k q from ridx_ix3 b p q k, v5_at]

/-- `(u · (uᵀ · G))[n,q] = Σ_p u[n,p] · Σ_k u[k,p] · G[k,q]`. -/
theorem v7_at (u G : Arr) (b : Fin 64) (n q : Fin 512) :
    val_main_v7 (F := Ideal) u G (ix3 b n q)
      = ∑ p : Fin 512, u (ix3 b n p) * ∑ k : Fin 512, u (ix3 b k p) * G (ix3 b k q) := by
  rw [val_main_v7_apply]
  refine Finset.sum_congr rfl fun p _ => ?_
  rw [show lidx_main_v7 (ix3 b n q) p = ix3 b n p from lidx_ix3 b n q p,
    show ridx_main_v7 (ix3 b n q) p = ix3 b p q from ridx_ix3 b n q p, v6_at]

/-- The reference's first result is `du`, where every entry of `u`, `A` and `G` is finite. -/
theorem ref_du (u A G : Arr) (hu : ∀ i, IsFin (u i)) (hA : ∀ i, IsFin (A i)) (hG : ∀ i, IsFin (G i)) :
    val_main_v9 (F := Ideal) u A G = du u A G := by
  funext i
  obtain ⟨b, n, q, rfl⟩ : ∃ (b : Fin 64) (n q : Fin 512), i = ix3 b n q := ⟨i 0, i 1, i 2, eq_ix3 i⟩
  rw [val_main_v9_apply, val_main_v8_apply, v4_at, v7_at, du_ix3]
  unfold duAt
  exact sum_mul_sub_rearrange (G (ix3 b n q)) (fun p => u (ix3 b n p))
    (fun p => half * (A (ix3 b p q) - A (ix3 b q p)))
    (fun p => ∑ k : Fin 512, u (ix3 b k p) * G (ix3 b k q))
    (hG _) (fun _ => hu _) (fun _ => isFin_half.mul ((hA _).sub (hA _)))
    (fun _ => IsFin.sum_univ _ fun _ => (hu _).mul (hG _))

/-! ### The second result, one operation at a time -/

/-- `(lam · A)[n,q] = Σ_k lam[n,k] · A[k,q]`. -/
theorem v10_at (lam A : Arr) (b : Fin 64) (n q : Fin 512) :
    val_main_v10 (F := Ideal) lam A (ix3 b n q) = ∑ k : Fin 512, lam (ix3 b n k) * A (ix3 b k q) := by
  rw [val_main_v10_apply]
  refine Finset.sum_congr rfl fun k _ => ?_
  rw [show lidx_main_v10 (ix3 b n q) k = ix3 b n k from lidx_ix3 b n q k,
    show ridx_main_v10 (ix3 b n q) k = ix3 b k q from ridx_ix3 b n q k]

/-- `Gᵀ[k,j] = G[j,k]`. -/
theorem v11_at (G : Arr) (b : Fin 64) (k j : Fin 512) :
    val_main_v11 (F := Ideal) G (ix3 b k j) = G (ix3 b j k) := by
  rw [val_main_v11_apply]; exact congrArg G (tidx_ix3 b k j)

/-- `C[n,j] = (lam · Gᵀ)[n,j] = Σ_k lam[n,k] · G[j,k]`. -/
theorem v12_at (lam G : Arr) (b : Fin 64) (n j : Fin 512) :
    val_main_v12 (F := Ideal) lam G (ix3 b n j) = ∑ k : Fin 512, lam (ix3 b n k) * G (ix3 b j k) := by
  rw [val_main_v12_apply]
  refine Finset.sum_congr rfl fun k _ => ?_
  rw [show lidx_main_v12 (ix3 b n j) k = ix3 b n k from lidx_ix3 b n j k,
    show ridx_main_v12 (ix3 b n j) k = ix3 b k j from ridx_ix3 b n j k, v11_at]

/-- `lamᵀ[k,j] = lam[j,k]`. -/
theorem v13_at (lam : Arr) (b : Fin 64) (k j : Fin 512) :
    val_main_v13 (F := Ideal) lam (ix3 b k j) = lam (ix3 b j k) := by
  rw [val_main_v13_apply]; exact congrArg lam (tidx_ix3 b k j)

/-- `Cᵀ[n,j] = (G · lamᵀ)[n,j] = Σ_k G[n,k] · lam[j,k]`: the reference writes `G` first. -/
theorem v14_at (lam G : Arr) (b : Fin 64) (n j : Fin 512) :
    val_main_v14 (F := Ideal) lam G (ix3 b n j) = ∑ k : Fin 512, G (ix3 b n k) * lam (ix3 b j k) := by
  rw [val_main_v14_apply]
  refine Finset.sum_congr rfl fun k _ => ?_
  rw [show lidx_main_v14 (ix3 b n j) k = ix3 b n k from lidx_ix3 b n j k,
    show ridx_main_v14 (ix3 b n j) k = ix3 b k j from ridx_ix3 b n j k, v13_at]

/-- `((C + Cᵀ) · u)[n,q] = Σ_j (C[n,j] + Cᵀ[n,j]) · u[j,q]`. -/
theorem v16_at (u lam G : Arr) (b : Fin 64) (n q : Fin 512) :
    val_main_v16 (F := Ideal) u lam G (ix3 b n q)
      = ∑ j : Fin 512, ((∑ k : Fin 512, lam (ix3 b n k) * G (ix3 b j k))
          + ∑ k : Fin 512, G (ix3 b n k) * lam (ix3 b j k)) * u (ix3 b j q) := by
  rw [val_main_v16_apply]
  refine Finset.sum_congr rfl fun j _ => ?_
  rw [show lidx_main_v16 (ix3 b n q) j = ix3 b n j from lidx_ix3 b n q j,
    show ridx_main_v16 (ix3 b n q) j = ix3 b j q from ridx_ix3 b n q j,
    val_main_v15_apply, v12_at, v14_at]
  rfl

/-- The reference's second result is `dlam`; only the factors of `Cᵀ`'s products are exchanged. -/
theorem ref_dlam (u lam A G : Arr) :
    val_main_v17 (F := Ideal) u lam A G = dlam u lam A G := by
  funext i
  obtain ⟨b, n, q, rfl⟩ : ∃ (b : Fin 64) (n q : Fin 512), i = ix3 b n q := ⟨i 0, i 1, i 2, eq_ix3 i⟩
  rw [val_main_v17_apply, v10_at, v16_at, dlam_ix3]
  unfold dlamAt
  refine congrArg (fun t => (∑ k : Fin 512, lam (ix3 b n k) * A (ix3 b k q)) + t) ?_
  refine Finset.sum_congr rfl fun j _ => ?_
  refine congrArg (fun t => ((∑ k : Fin 512, lam (ix3 b n k) * G (ix3 b j k)) + t) * u (ix3 b j q)) ?_
  exact Finset.sum_congr rfl fun k _ => mul_comm _ _

end Cert.OdeRef

end
-- ==== Proof.Contract.lean ====
/-
  The body's three kinds of matrix product, each read at one entry of the 512 × 512 result. Into a zero
  accumulator a product is the plain sum, over the one contracted coordinate `k`, of the products of the two
  operands' entries; the three kinds differ only in which axis of each operand is contracted:

    rows × columns      (l · r)[a, b]   = Σ_k l[a, k] · r[k, b]
    columns × columns   (lᵀ · r)[a, b]  = Σ_k l[k, a] · r[k, b]
    rows × rows         (l · rᵀ)[a, b]  = Σ_k l[a, k] · r[b, k]

  For each kind the operand indices at a result index and a contraction index are computed coordinate by
  coordinate (the free coordinate comes from the result index, the contracted one is `k`), and the sum over the
  contraction's index set is re-indexed by its one coordinate.
-/
import proofs.«125087_j79233556677072_2_alg».proof.Proof.Gen.KernelIdeal
import Idealize.ShloMosaic.Lib.ValueIdx
import Idealize.ShloMosaic.PureOps.Ideal.Laws

noncomputable section

open scoped BigOperators

namespace Cert.OdeContract

open Idealize.ShloMosaic Idealize.ShloMosaic.ValueIdx Cert.KernelIdeal Cert.KernelIdeal.Gen

/-- Rows of the left operand against columns of the right: the left operand's free axis is its rows, the right's its columns. -/
theorem rowsCols_lhs_free (j : S512x512.Idx) (κ : dot_S512x512_S512x512_S512x512_1_0_0_1_n_n.contr.Idx) :
    (dot_S512x512_S512x512_S512x512_1_0_0_1_n_n.lhsIdx j κ 0).val = (j 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem rowsCols_lhs_contr (j : S512x512.Idx) (κ : dot_S512x512_S512x512_S512x512_1_0_0_1_n_n.contr.Idx) :
    (dot_S512x512_S512x512_S512x512_1_0_0_1_n_n.lhsIdx j κ 1).val = (κ ⟨0, by decide⟩).val :=
  dot_S512x512_S512x512_S512x512_1_0_0_1_n_n.lhsIdx_val_of_single rfl j κ
theorem rowsCols_rhs_free (j : S512x512.Idx) (κ : dot_S512x512_S512x512_S512x512_1_0_0_1_n_n.contr.Idx) :
    (dot_S512x512_S512x512_S512x512_1_0_0_1_n_n.rhsIdx j κ 1).val = (j 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl
theorem rowsCols_rhs_contr (j : S512x512.Idx) (κ : dot_S512x512_S512x512_S512x512_1_0_0_1_n_n.contr.Idx) :
    (dot_S512x512_S512x512_S512x512_1_0_0_1_n_n.rhsIdx j κ 0).val = (κ ⟨0, by decide⟩).val :=
  dot_S512x512_S512x512_S512x512_1_0_0_1_n_n.rhsIdx_val_of_single rfl j κ

theorem rowsCols_apply (l r : FVec Ideal S512x512 .f32) (a b : Fin 512) :
    matmul dot_S512x512_S512x512_S512x512_1_0_0_1_n_n (some .fp32) l r (constant S512x512 .f32 0x00000000#32) (ix2 a b)
      = ∑ k : Fin 512, l (ix2 a k) * r (ix2 k b) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 a b) ((contrEquiv1 dot_S512x512_S512x512_S512x512_1_0_0_1_n_n 512 rfl rfl).symm k) = ix2 a k := funext fun c => Fin.ext (by
    match c with
    | ⟨0, _⟩ => exact rowsCols_lhs_free _ _
    | ⟨1, _⟩ => exact (rowsCols_lhs_contr _ _).trans hk)
  have er : dot_S512x512_S512x512_S512x512_1_0_0_1_n_n.rhsIdx (ix2 a b) ((contrEquiv1 dot_S512x512_S512x512_S512x512_1_0_0_1_n_n 512 rfl rfl).symm k) = ix2 k b := funext fun c => Fin.ext (by
    match c with
    | ⟨1, _⟩ => exact rowsCols_rhs_free _ _
    | ⟨0, _⟩ => exact (rowsCols_rhs_contr _ _).trans hk)
  rw [el, er]

/-- Columns of the left operand against columns of the right (the left operand read transposed). -/
theorem colsCols_lhs_free (j : S512x512.Idx) (κ : dot_S512x512_S512x512_S512x512_0_0_1_1_n_n.contr.Idx) :
    (dot_S512x512_S512x512_S512x512_0_0_1_1_n_n.lhsIdx j κ 1).val = (j 0).val := by
  unfold DotDims.lhsIdx
  rw [dif_neg (show ¬(1 : Fin S512x512.rank) ∈ dot_S512x512_S512x512_S512x512_0_0_1_1_n_n.lhsBatch by decide), dif_pos (show (1 : Fin S512x512.rank) ∈ dot_S512x512_S512x512_S512x512_0_0_1_1_n_n.lhsNonContracting by decide)]
  rfl
theorem colsCols_lhs_contr (j : S512x512.Idx) (κ : dot_S512x512_S512x512_S512x512_0_0_1_1_n_n.contr.Idx) :
    (dot_S512x512_S512x512_S512x512_0_0_1_1_n_n.lhsIdx j κ 0).val = (κ ⟨0, by decide⟩).val :=
  dot_S512x512_S512x512_S512x512_0_0_1_1_n_n.lhsIdx_val_of_single rfl j κ
theorem colsCols_rhs_free (j : S512x512.Idx) (κ : dot_S512x512_S512x512_S512x512_0_0_1_1_n_n.contr.Idx) :
    (dot_S512x512_S512x512_S512x512_0_0_1_1_n_n.rhsIdx j κ 1).val = (j 1).val := by
  unfold DotDims.rhsIdx
  rw [dif_neg (show ¬(1 : Fin S512x512.rank) ∈ dot_S512x512_S512x512_S512x512_0_0_1_1_n_n.rhsBatch by decide), dif_pos (show (1 : Fin S512x512.rank) ∈ dot_S512x512_S512x512_S512x512_0_0_1_1_n_n.rhsNonContracting by decide)]
  rfl
theorem colsCols_rhs_contr (j : S512x512.Idx) (κ : dot_S512x512_S512x512_S512x512_0_0_1_1_n_n.contr.Idx) :
    (dot_S512x512_S512x512_S512x512_0_0_1_1_n_n.rhsIdx j κ 0).val = (κ ⟨0, by decide⟩).val :=
  dot_S512x512_S512x512_S512x512_0_0_1_1_n_n.rhsIdx_val_of_single rfl j κ

theorem colsCols_apply (l r : FVec Ideal S512x512 .f32) (a b : Fin 512) :
    matmul dot_S512x512_S512x512_S512x512_0_0_1_1_n_n (some .fp32) l r (constant S512x512 .f32 0x00000000#32) (ix2 a b)
      = ∑ k : Fin 512, l (ix2 k a) * r (ix2 k b) := by
  simp only [matmul]
  rw [Ideal.matmul_constant_zero_apply, ← Equiv.sum_comp (contrEquiv1 dot_S512x512_S512x512_S512x512_0_0_1_1_n_n 512 rfl rfl).symm]
  refine Finset.sum_congr rfl fun k _ => ?_
  have hk := contrEquiv1_symm_val dot_S512x512_S512x512_S512x512_0_0_1_1_n_n 512 rfl rfl k
  have el : dot_S512x512_S512x512_S512x512_0_0_1_1_n_n.lhsIdx (ix2 a b) ((contrEquiv1 dot_S512x512_S512x512_S512x512_0_0_1_1_n_n 512 rfl rfl).symm k) = ix2 k a := funext fun c => Fin.ext (by
    match c with
    | ⟨1, _⟩ => exact colsCols_lhs_free _ _
    | ⟨0, _⟩ => exact (colsCols_lhs_contr _ _).trans hk)
  have er : dot_S512x512_S512x512_S512x512_0_0_1_1_n_n.rhsIdx (ix2 a b) ((contrEquiv1 dot_S512x512_S512x512_S512x512_0_0_1_1_n_n 512 rfl rfl).symm k) = ix2 k b := funext fun c => Fin.ext (by
    match c with
    | ⟨1, _⟩ => exact colsCols_rhs_free _ _
    | ⟨0, _⟩ => exact (colsCols_rhs_contr _ _).trans hk)
  rw [el, er]

/-- Rows of the left operand against rows of the right (the right operand read transposed). -/
theorem rowsRows_lhs_free (j : S512x512.Idx) (κ : dot_S512x512_S512x512_S512x512_1_1_0_0_n_n.contr.Idx) :
    (dot_S512x512_S512x512_S512x512_1_1_0_0_n_n.lhsIdx j κ 0).val = (j 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem rowsRows_lhs_contr (j : S512x512.Idx) (κ : dot_S512x512_S512x512_S512x512_1_1_0_0_n_n.contr.Idx) :
    (dot_S512x512_S512x512_S512x512_1_1_0_0_n_n.lhsIdx j κ 1).val = (κ ⟨0, by decide⟩).val :=
  dot_S512x512_S512x512_S512x512_1_1_0_0_n_n.lhsIdx_val_of_single rfl j κ
theorem rowsRows_rhs_free (j : S512x512.Idx) (κ : dot_S512x512_S512x512_S512x512_1_1_0_0_n_n.contr.Idx) :
    (dot_S512x512_S512x512_S512x512_1_1_0_0_n_n.rhsIdx j κ 0).val = (j 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rowsRows_rhs_contr (j : S512x512.Idx) (κ : dot_S512x512_S512x512_S512x512_1_1_0_0_n_n.contr.Idx) :
    (dot_S512x512_S512x512_S512x512_1_1_0_0_n_n.rhsIdx j κ 1).val = (κ ⟨0, by decide⟩).val :=
  dot_S512x512_S512x512_S512x512_1_1_0_0_n_n.rhsIdx_val_of_single rfl j κ

theorem rowsRows_apply (l r : FVec Ideal S512x512 .f32) (a b : Fin 512) :
    matmul dot_S512x512_S512x512_S512x512_1_1_0_0_n_n (some .fp32) l r (constant S512x512 .f32 0x00000000#32) (ix2 a b)
      = ∑ k : Fin 512, l (ix2 a k) * r (ix2 b k) := by
  simp only [matmul]
  rw [Ideal.matmul_constant_zero_apply, ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 a b) ((contrEquiv1 dot_S512x512_S512x512_S512x512_1_1_0_0_n_n 512 rfl rfl).symm k) = ix2 a k := funext fun c => Fin.ext (by
    match c with
    | ⟨0, _⟩ => exact rowsRows_lhs_free _ _
    | ⟨1, _⟩ => exact (rowsRows_lhs_contr _ _).trans hk)
  have er : dot_S512x512_S512x512_S512x512_1_1_0_0_n_n.rhsIdx (ix2 a b) ((contrEquiv1 dot_S512x512_S512x512_S512x512_1_1_0_0_n_n 512 rfl rfl).symm k) = ix2 b k := funext fun c => Fin.ext (by
    match c with
    | ⟨0, _⟩ => exact rowsRows_rhs_free _ _
    | ⟨1, _⟩ => exact (rowsRows_rhs_contr _ _).trans hk)
  rw [el, er]

end Cert.OdeContract

end
-- ==== Proof.Body.lean ====
/-
  What the kernel body stores, read at one entry.

  The body loads the point's four blocks, each a [1, 512, 512] slab: `x0` of `u`, `x1` of `lam`, `x2` of `A`,
  `x3` of `G`. It drops the unit axis, computes on 512 × 512 matrices, and puts the unit axis back before each of
  its two stores. Read at row `n`, column `q`:

    first store   G[n,q] + Σ_p u[n,p] · (½ (A[p,q] − A[q,p]) − Σ_k u[k,p] · G[k,q])
    second store  Σ_k lam[n,k] · A[k,q] + Σ_j (Σ_k lam[n,k] · G[j,k] + Σ_k lam[j,k] · G[n,k]) · u[j,q]

  the matrix products by the three contraction lemmas, the transposes by swapping the two coordinates, the
  pointwise operations entry by entry. Nothing here uses a law of arithmetic: the terms are the body's own.
-/
import proofs.«125087_j79233556677072_2_alg».proof.Proof.Gen.KernelIdeal.Skeleton
import proofs.«125087_j79233556677072_2_alg».proof.Proof.Field
import proofs.«125087_j79233556677072_2_alg».proof.Proof.Contract
import Idealize.ShloMosaic.Lib.ValueIdx
import Idealize.ShloMosaic.Lib.ValueLayout
import Idealize.ShloMosaic.Lib.Pipeline.Value

noncomputable section

open scoped BigOperators

namespace Cert.OdeBody

open Idealize.ShloMosaic Idealize.ShloMosaic.ValueIdx Cert.KernelIdeal Cert.KernelIdeal.Gen Cert.OdeField Cert.OdeContract

/-- A [1, 512, 512] slab with its unit axis dropped reads, at `(a, b)`, the slab at `(0, a, b)`. -/
theorem drop_at (x : Vec Ideal S1x512x512 .f32) (a b : Fin 512) :
    shapeCast S512x512 x shapeCasts_S1x512x512_S512x512 (ix2 a b) = x (ix3 0 a b) :=
  shapeCast_1ab_ab_apply x _ a b

theorem pay1_at (x : Vec Ideal S1x512x512 .f32) (a b : Fin 512) : k0_pay1 x (ix2 a b) = x (ix3 0 a b) := by
  unfold k0_pay1; exact drop_at x a b

theorem pay2_at (x : Vec Ideal S1x512x512 .f32) (a b : Fin 512) : k0_pay2 x (ix2 a b) = x (ix3 0 a b) := by
  unfold k0_pay2; exact drop_at x a b

theorem pay3_at (x : Vec Ideal S1x512x512 .f32) (a b : Fin 512) : k0_pay3 x (ix2 a b) = x (ix3 0 a b) := by
  unfold k0_pay3; exact drop_at x a b

/-- The skew part of `A`, entry `(p, q)`: one half of `A[p,q] − A[q,p]`. -/
theorem skew_at (x2 : Vec Ideal S1x512x512 .f32) (p q : Fin 512) :
    (mulf (broadcast S512x512 (FloatOps.ofBits (F := Ideal) .f32 0x3F000000#32))
        (subf (k0_pay2 x2) (transpose S512x512 [1, 0] (k0_pay2 x2) transposes_S512x512_p1_0_S512x512))) (ix2 p q)
      = half * (x2 (ix3 0 p q) - x2 (ix3 0 q p)) := by
  rw [mulf_apply, subf_apply, transpose_ix2_apply, pay2_at, pay2_at]
  rfl

/-- The first store at `(n, q)`. -/
theorem pay4_at (x0 x2 x3 : Vec Ideal S1x512x512 .f32) (u : Fin 1) (n q : Fin 512) :
    k0_pay4 x0 x2 x3 (ix3 u n q)
      = x3 (ix3 0 n q) + ∑ p : Fin 512, x0 (ix3 0 n p) *
          (half * (x2 (ix3 0 p q) - x2 (ix3 0 q p)) - ∑ k : Fin 512, x0 (ix3 0 k p) * x3 (ix3 0 k q)) := by
  unfold k0_pay4
  dsimp only
  refine (shapeCast_ab_1ab_apply _ _ u n q).trans ?_
  rw [addf_apply, pay3_at, rowsCols_apply]
  refine congrArg (x3 (ix3 0 n q) + ·) (Finset.sum_congr rfl fun p _ => ?_)
  rw [pay1_at, subf_apply, skew_at, colsCols_apply]
  refine congrArg (fun z => x0 (ix3 0 n p) * (half * (x2 (ix3 0 p q) - x2 (ix3 0 q p)) - z))
    (Finset.sum_congr rfl fun k _ => ?_)
  rw [pay1_at, pay3_at]

/-- The second store at `(n, q)`. -/
theorem pay5_at (x0 x1 x2 x3 : Vec Ideal S1x512x512 .f32) (u : Fin 1) (n q : Fin 512) :
    k0_pay5 x0 x1 x2 x3 (ix3 u n q)
      = (∑ k : Fin 512, x1 (ix3 0 n k) * x2 (ix3 0 k q))
        + ∑ j : Fin 512, ((∑ k : Fin 512, x1 (ix3 0 n k) * x3 (ix3 0 j k))
            + ∑ k : Fin 512, x1 (ix3 0 j k) * x3 (ix3 0 n k)) * x0 (ix3 0 j q) := by
  unfold k0_pay5
  dsimp only
  refine (shapeCast_ab_1ab_apply _ _ u n q).trans ?_
  rw [addf_apply, rowsCols_apply, rowsCols_apply]
  refine congrArg₂ (· + ·) (Finset.sum_congr rfl fun k _ => ?_) (Finset.sum_congr rfl fun j _ => ?_)
  · rw [drop_at, pay2_at]
  · rw [addf_apply, transpose_ix2_apply, rowsRows_apply, rowsRows_apply, pay1_at]
    refine congrArg (· * x0 (ix3 0 j q)) ?_
    refine congrArg₂ (· + ·) (Finset.sum_congr rfl fun k _ => ?_) (Finset.sum_congr rfl fun k _ => ?_)
    · rw [drop_at, pay3_at]
    · rw [drop_at, pay3_at]

end Cert.OdeBody

end
-- ==== Proof.Blocks.lean ====
/-
  From blocks to whole arrays.

  The grid has one point per batch. At point `t` every window's block is the whole [1, 512, 512] slab number `t`
  of its array (the block index is `(t, 0, 0)`, decided over the 64 points), so an entry `(0, a, b)` of a block is
  the entry `(t, a, b)` of the array. The body's two stores at a point are therefore the slab `t` of `du` and of
  `dlam` of the argument arrays, the 64 slabs cover each result array, and after the run the two result arrays
  are `du` and `dlam` of the arguments as launched.
-/
import proofs.«125087_j79233556677072_2_alg».proof.Proof.Gen.KernelIdeal.Value
import proofs.«125087_j79233556677072_2_alg».proof.Proof.Field
import proofs.«125087_j79233556677072_2_alg».proof.Proof.Body
import Idealize.ShloMosaic.Lib.Pipeline.Value
import Idealize.ShloMosaic.Lib.ValueIdx

noncomputable section

open scoped BigOperators

namespace Cert.OdeBlocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.OdeField Cert.OdeBody

variable (m : (ℓ : Loc nD τ sig) → Buf (Elt Ideal) ℓ) (ρ : Dev nD → PrngReg)

/-- The literal zero offset of a rank-three rectangle is the constant-zero function. -/
theorem hz3 : (![0, 0, 0] : Fin 3 → Nat) = fun _ => 0 := funext fun a => by fin_cases a <;> rfl

/-- A grid point as a batch coordinate. -/
def pt (t : Fin cfg0.N) : Fin 64 := ⟨t.val, lt_of_lt_of_eq t.isLt (show cfg0.N = 64 from N_0)⟩

/-- The grid point of a batch coordinate. -/
def ptOf (b : Fin 64) : Fin cfg0.N := ⟨b.val, lt_of_lt_of_eq b.isLt (show cfg0.N = 64 from N_0).symm⟩

/-- The printed index maps, decided over the grid: at point `t` every window's block index is `(t, 0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- Window 0's block at point `t`, read at `(0, a, b)`, is the argument array at `(t, a, b)`. -/
theorem iblk0_at (c : Dev nD) (t : Fin cfg0.N) (u : Fin 1) (a b : Fin 512) :
    (iblk m c 0 t : Vec Ideal S1x512x512 .f32) (ix3 u a b)
      = (m ((c : Thread nD τ).loc main_arg0) : S64x512x512.Idx → EReal) (ix3 (pt t) a b) := by
  obtain ⟨h0, h1, h2⟩ := (idx_facts t).1
  unfold iblk
  rw [View.read_apply]
  show V m c main_arg0 _ = m (c.tc.loc main_arg0) _
  unfold V
  congr 1
  funext d
  apply Fin.ext
  match d with
  | ⟨0, _⟩ => show win0_0.index t 0 * 1 + 1 * u.val = t.val; rw [h0]; omega
  | ⟨1, _⟩ => show win0_0.index t 1 * 512 + 1 * a.val = a.val; rw [h1]; omega
  | ⟨2, _⟩ => show win0_0.index t 2 * 512 + 1 * b.val = b.val; rw [h2]; omega

/-- Window 1's block at point `t`, read at `(0, a, b)`, is the argument array at `(t, a, b)`. -/
theorem iblk1_at (c : Dev nD) (t : Fin cfg0.N) (u : Fin 1) (a b : Fin 512) :
    (iblk m c 1 t : Vec Ideal S1x512x512 .f32) (ix3 u a b)
      = (m ((c : Thread nD τ).loc main_arg1) : S64x512x512.Idx → EReal) (ix3 (pt t) a b) := by
  obtain ⟨h0, h1, h2⟩ := (idx_facts t).2.1
  unfold iblk
  rw [View.read_apply]
  show V m c main_arg1 _ = m (c.tc.loc main_arg1) _
  unfold V
  congr 1
  funext d
  apply Fin.ext
  match d with
  | ⟨0, _⟩ => show win0_1.index t 0 * 1 + 1 * u.val = t.val; rw [h0]; omega
  | ⟨1, _⟩ => show win0_1.index t 1 * 512 + 1 * a.val = a.val; rw [h1]; omega
  | ⟨2, _⟩ => show win0_1.index t 2 * 512 + 1 * b.val = b.val; rw [h2]; omega

/-- Window 2's block at point `t`, read at `(0, a, b)`, is the argument array at `(t, a, b)`. -/
theorem iblk2_at (c : Dev nD) (t : Fin cfg0.N) (u : Fin 1) (a b : Fin 512) :
    (iblk m c 2 t : Vec Ideal S1x512x512 .f32) (ix3 u a b)
      = (m ((c : Thread nD τ).loc main_arg2) : S64x512x512.Idx → EReal) (ix3 (pt t) a b) := by
  obtain ⟨h0, h1, h2⟩ := (idx_facts t).2.2.1
  unfold iblk
  rw [View.read_apply]
  show V m c main_arg2 _ = m (c.tc.loc main_arg2) _
  unfold V
  congr 1
  funext d
  apply Fin.ext
  match d with
  | ⟨0, _⟩ => show win0_2.index t 0 * 1 + 1 * u.val = t.val; rw [h0]; omega
  | ⟨1, _⟩ => show win0_2.index t 1 * 512 + 1 * a.val = a.val; rw [h1]; omega
  | ⟨2, _⟩ => show win0_2.index t 2 * 512 + 1 * b.val = b.val; rw [h2]; omega

/-- Window 3's block at point `t`, read at `(0, a, b)`, is the argument array at `(t, a, b)`. -/
theorem iblk3_at (c : Dev nD) (t : Fin cfg0.N) (u : Fin 1) (a b : Fin 512) :
    (iblk m c 3 t : Vec Ideal S1x512x512 .f32) (ix3 u a b)
      = (m ((c : Thread nD τ).loc main_arg3) : S64x512x512.Idx → EReal) (ix3 (pt t) a b) := by
  obtain ⟨h0, h1, h2⟩ := (idx_facts t).2.2.2.1
  unfold iblk
  rw [View.read_apply]
  show V m c main_arg3 _ = m (c.tc.loc main_arg3) _
  unfold V
  congr 1
  funext d
  apply Fin.ext
  match d with
  | ⟨0, _⟩ => show win0_3.index t 0 * 1 + 1 * u.val = t.val; rw [h0]; omega
  | ⟨1, _⟩ => show win0_3.index t 1 * 512 + 1 * a.val = a.val; rw [h1]; omega
  | ⟨2, _⟩ => show win0_3.index t 2 * 512 + 1 * b.val = b.val; rw [h2]; omega

/-! ## The first result -/

/-- Output window 4's block at point `t` sits at `(t, a, b)` of its array. -/
theorem emb4_at (t : Fin cfg0.N) (u : Fin 1) (a b : Fin 512) :
    ((cfg0.win 4).blk t).view.emb (ix3 u a b) = (ix3 (pt t) a b : S64x512x512.Idx) := by
  obtain ⟨h0, h1, h2⟩ := (idx_facts t).2.2.2.2.1
  funext d
  apply Fin.ext
  match d with
  | ⟨0, _⟩ => show win0_4.index t 0 * 1 + 1 * u.val = t.val; rw [h0]; omega
  | ⟨1, _⟩ => show win0_4.index t 1 * 512 + 1 * a.val = a.val; rw [h1]; omega
  | ⟨2, _⟩ => show win0_4.index t 2 * 512 + 1 * b.val = b.val; rw [h2]; omega

/-- What point `t` writes back to output window 4's array is block `t` of `du` of the argument arrays. -/
theorem flushed4_eq (c : Dev nD) (t : Fin cfg0.N) :
    (dats m 0 c).flushed 4 t = ((cfg0.win 4).blk t).view.read (Elt Ideal) (du (m ((c : Thread nD τ).loc main_arg0) : S64x512x512.Idx → EReal) (m ((c : Thread nD τ).loc main_arg2) : S64x512x512.Idx → EReal) (m ((c : Thread nD τ).loc main_arg3) : S64x512x512.Idx → EReal)) := by
  rw [flushed4]
  unfold out0_4
  rw [View.canon_unit_zero hz3]
  simp only [View.ld_unit_zero (S := S1x512x512) hz3]
  funext j
  obtain ⟨u, a, b, rfl⟩ : ∃ (u : Fin 1) (a b : Fin 512), j = ix3 u a b := ⟨j 0, j 1, j 2, eq_ix3 j⟩
  show k0_pay4 (iblk m c 0 t) (iblk m c 2 t) (iblk m c 3 t) (ix3 u a b) = (du (m ((c : Thread nD τ).loc main_arg0) : S64x512x512.Idx → EReal) (m ((c : Thread nD τ).loc main_arg2) : S64x512x512.Idx → EReal) (m ((c : Thread nD τ).loc main_arg3) : S64x512x512.Idx → EReal)) (((cfg0.win 4).blk t).view.emb (ix3 u a b))
  rw [emb4_at, du_ix3]
  refine (pay4_at (iblk m c 0 t) (iblk m c 2 t) (iblk m c 3 t) u a b).trans ?_
  unfold duAt
  simp only [iblk0_at, iblk2_at, iblk3_at]

/-- An index of the array is in point `t`'s block of window 4 iff each coordinate is in the block's range. -/
theorem mem_blk4 (t : Fin cfg0.N) (i : S64x512x512.Idx) :
    i ∈ ((cfg0.win 4).blk t).view.set ↔ ∀ d : Fin 3, win0_4.index t d * S1x512x512.size d ≤ (i d).val ∧ (i d).val < win0_4.index t d * S1x512x512.size d + S1x512x512.size d := by
  show i ∈ ((View.whole main_v0_0).slice (win0_4.rect t)).set ↔ _
  rw [View.set_slice_whole, Rect.mem_set_unit]
  exact Iff.rfl

/-- Every index of the array is in the block of the point named by its batch coordinate. -/
theorem cover4 (i : S64x512x512.Idx) :
    ∃ t : Fin cfg0.N, (cfg0.win 4).flush t = true ∧ i ∈ ((cfg0.win 4).blk t).view.set := by
  have hi0 : (i 0).val < 64 := (i 0).isLt
  have hi1 : (i 1).val < 512 := (i 1).isLt
  have hi2 : (i 2).val < 512 := (i 2).isLt
  refine ⟨ptOf ⟨(i 0).val, hi0⟩, flush0_4 _, ?_⟩
  obtain ⟨h0, h1, h2⟩ := (idx_facts (ptOf ⟨(i 0).val, hi0⟩)).2.2.2.2.1
  rw [mem_blk4]
  intro d
  match d with
  | ⟨0, _⟩ =>
    show win0_4.index _ 0 * 1 ≤ (i 0).val ∧ (i 0).val < win0_4.index _ 0 * 1 + 1
    rw [h0]
    show (i 0).val * 1 ≤ (i 0).val ∧ (i 0).val < (i 0).val * 1 + 1
    omega
  | ⟨1, _⟩ => show win0_4.index _ 1 * 512 ≤ (i 1).val ∧ (i 1).val < win0_4.index _ 1 * 512 + 512; rw [h1]; omega
  | ⟨2, _⟩ => show win0_4.index _ 2 * 512 ≤ (i 2).val ∧ (i 2).val < win0_4.index _ 2 * 512 + 512; rw [h2]; omega

/-- So after the run output window 4's array is `du` of the argument arrays. -/
theorem final4 (c : Dev nD) : (dats m 0 c).arrAt 4 cfg0.N = du (m ((c : Thread nD τ).loc main_arg0) : S64x512x512.Idx → EReal) (m ((c : Thread nD τ).loc main_arg2) : S64x512x512.Idx → EReal) (m ((c : Thread nD τ).loc main_arg3) : S64x512x512.Idx → EReal) :=
  (dats m 0 c).arrAt_eq_of_cover 4 (du (m ((c : Thread nD τ).loc main_arg0) : S64x512x512.Idx → EReal) (m ((c : Thread nD τ).loc main_arg2) : S64x512x512.Idx → EReal) (m ((c : Thread nD τ).loc main_arg3) : S64x512x512.Idx → EReal)) (fun t _ => flushed4_eq m c t) cover4

/-! ## The second result -/

/-- Output window 5's block at point `t` sits at `(t, a, b)` of its array. -/
theorem emb5_at (t : Fin cfg0.N) (u : Fin 1) (a b : Fin 512) :
    ((cfg0.win 5).blk t).view.emb (ix3 u a b) = (ix3 (pt t) a b : S64x512x512.Idx) := by
  obtain ⟨h0, h1, h2⟩ := (idx_facts t).2.2.2.2.2
  funext d
  apply Fin.ext
  match d with
  | ⟨0, _⟩ => show win0_5.index t 0 * 1 + 1 * u.val = t.val; rw [h0]; omega
  | ⟨1, _⟩ => show win0_5.index t 1 * 512 + 1 * a.val = a.val; rw [h1]; omega
  | ⟨2, _⟩ => show win0_5.index t 2 * 512 + 1 * b.val = b.val; rw [h2]; omega

/-- What point `t` writes back to output window 5's array is block `t` of `dlam` of the argument arrays. -/
theorem flushed5_eq (c : Dev nD) (t : Fin cfg0.N) :
    (dats m 0 c).flushed 5 t = ((cfg0.win 5).blk t).view.read (Elt Ideal) (dlam (m ((c : Thread nD τ).loc main_arg0) : S64x512x512.Idx → EReal) (m ((c : Thread nD τ).loc main_arg1) : S64x512x512.Idx → EReal) (m ((c : Thread nD τ).loc main_arg2) : S64x512x512.Idx → EReal) (m ((c : Thread nD τ).loc main_arg3) : S64x512x512.Idx → EReal)) := by
  rw [flushed5]
  unfold out0_5
  rw [View.canon_unit_zero hz3]
  simp only [View.ld_unit_zero (S := S1x512x512) hz3]
  funext j
  obtain ⟨u, a, b, rfl⟩ : ∃ (u : Fin 1) (a b : Fin 512), j = ix3 u a b := ⟨j 0, j 1, j 2, eq_ix3 j⟩
  show k0_pay5 (iblk m c 0 t) (iblk m c 1 t) (iblk m c 2 t) (iblk m c 3 t) (ix3 u a b) = (dlam (m ((c : Thread nD τ).loc main_arg0) : S64x512x512.Idx → EReal) (m ((c : Thread nD τ).loc main_arg1) : S64x512x512.Idx → EReal) (m ((c : Thread nD τ).loc main_arg2) : S64x512x512.Idx → EReal) (m ((c : Thread nD τ).loc main_arg3) : S64x512x512.Idx → EReal)) (((cfg0.win 5).blk t).view.emb (ix3 u a b))
  rw [emb5_at, dlam_ix3]
  refine (pay5_at (iblk m c 0 t) (iblk m c 1 t) (iblk m c 2 t) (iblk m c 3 t) u a b).trans ?_
  unfold dlamAt
  simp only [iblk0_at, iblk1_at, iblk2_at, iblk3_at]

/-- An index of the array is in point `t`'s block of window 5 iff each coordinate is in the block's range. -/
theorem mem_blk5 (t : Fin cfg0.N) (i : S64x512x512.Idx) :
    i ∈ ((cfg0.win 5).blk t).view.set ↔ ∀ d : Fin 3, win0_5.index t d * S1x512x512.size d ≤ (i d).val ∧ (i d).val < win0_5.index t d * S1x512x512.size d + S1x512x512.size d := by
  show i ∈ ((View.whole main_v0_1).slice (win0_5.rect t)).set ↔ _
  rw [View.set_slice_whole, Rect.mem_set_unit]
  exact Iff.rfl

/-- Every index of the array is in the block of the point named by its batch coordinate. -/
theorem cover5 (i : S64x512x512.Idx) :
    ∃ t : Fin cfg0.N, (cfg0.win 5).flush t = true ∧ i ∈ ((cfg0.win 5).blk t).view.set := by
  have hi0 : (i 0).val < 64 := (i 0).isLt
  have hi1 : (i 1).val < 512 := (i 1).isLt
  have hi2 : (i 2).val < 512 := (i 2).isLt
  refine ⟨ptOf ⟨(i 0).val, hi0⟩, flush0_5 _, ?_⟩
  obtain ⟨h0, h1, h2⟩ := (idx_facts (ptOf ⟨(i 0).val, hi0⟩)).2.2.2.2.2
  rw [mem_blk5]
  intro d
  match d with
  | ⟨0, _⟩ =>
    show win0_5.index _ 0 * 1 ≤ (i 0).val ∧ (i 0).val < win0_5.index _ 0 * 1 + 1
    rw [h0]
    show (i 0).val * 1 ≤ (i 0).val ∧ (i 0).val < (i 0).val * 1 + 1
    omega
  | ⟨1, _⟩ => show win0_5.index _ 1 * 512 ≤ (i 1).val ∧ (i 1).val < win0_5.index _ 1 * 512 + 512; rw [h1]; omega
  | ⟨2, _⟩ => show win0_5.index _ 2 * 512 ≤ (i 2).val ∧ (i 2).val < win0_5.index _ 2 * 512 + 512; rw [h2]; omega

/-- So after the run output window 5's array is `dlam` of the argument arrays. -/
theorem final5 (c : Dev nD) : (dats m 0 c).arrAt 5 cfg0.N = dlam (m ((c : Thread nD τ).loc main_arg0) : S64x512x512.Idx → EReal) (m ((c : Thread nD τ).loc main_arg1) : S64x512x512.Idx → EReal) (m ((c : Thread nD τ).loc main_arg2) : S64x512x512.Idx → EReal) (m ((c : Thread nD τ).loc main_arg3) : S64x512x512.Idx → EReal) :=
  (dats m 0 c).arrAt_eq_of_cover 5 (dlam (m ((c : Thread nD τ).loc main_arg0) : S64x512x512.Idx → EReal) (m ((c : Thread nD τ).loc main_arg1) : S64x512x512.Idx → EReal) (m ((c : Thread nD τ).loc main_arg2) : S64x512x512.Idx → EReal) (m ((c : Thread nD τ).loc main_arg3) : S64x512x512.Idx → EReal)) (fun t _ => flushed5_eq m c t) cover5

/-! ## The run -/

/-- Every weakly fair execution of the kernel's program terminates with the two result arrays at `du` and `dlam` of
    the argument arrays as launched, and the arguments unchanged. -/
theorem run : θ_run defs (onTc (τ := τ) (main (F := Ideal))) ⟨m, fun _ => 0, ρ⟩ fun r => ∀ c : Dev nD,
      r.2.mem ((c : Thread nD τ).loc main_v0_0) = du (m ((c : Thread nD τ).loc main_arg0) : S64x512x512.Idx → EReal) (m ((c : Thread nD τ).loc main_arg2) : S64x512x512.Idx → EReal) (m ((c : Thread nD τ).loc main_arg3) : S64x512x512.Idx → EReal)
      ∧ r.2.mem ((c : Thread nD τ).loc main_v0_1) = dlam (m ((c : Thread nD τ).loc main_arg0) : S64x512x512.Idx → EReal) (m ((c : Thread nD τ).loc main_arg1) : S64x512x512.Idx → EReal) (m ((c : Thread nD τ).loc main_arg2) : S64x512x512.Idx → EReal) (m ((c : Thread nD τ).loc main_arg3) : S64x512x512.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final4 m c), (h c).2.1.trans (final5 m c), (h c).2.2⟩)
    (run_blocks m ρ)

end Cert.OdeBlocks

end
-- ==== Proof.lean ====
/-
  The augmented vector field of a rotation-plus-projection flow, computed two ways.

  Per batch, for 512 × 512 matrices `u`, `lam`, `A`, `G` and `Ω = ½ (A − Aᵀ)`, the kernel computes

    du   = G + u · (Ω − uᵀ · G)              dlam = lam · A + (C + Cᵀ) · u,  C = lam · Gᵀ,

  one batch per grid point, and the reference computes, over the whole batch at once,

    du   = u · Ω + (G − u · (uᵀ · G))        dlam = lam · A + (lam · Gᵀ + G · lamᵀ) · u.

  With exact arithmetic on the extended reals every matrix product is the plain sum over the contracted
  coordinate. The two second results differ only in the order of the two factors inside `Cᵀ = G · lamᵀ`, and a
  product of extended reals commutes, so they agree on every input. The two first results differ by
  distributing `u ·` over a difference and regrouping three terms; on the extended reals that is valid where
  the entries are finite (at infinities a product does not distribute over a difference), and the precondition
  says exactly that every entry of every argument is finite.

  The pieces: the specification and the rearrangement law (Field); the precondition read as finiteness of every
  entry (Finite); the reference's results read as the specification (RefIs); the kernel's three kinds of matrix
  product and its two stores read at an entry (Contract, Body); the 64 blocks assembled into the two result arrays
  (Blocks). The kernel and its idealization run by their frame theorems, and the ideal pass rewrote nothing, so
  the idealization is the program's own text read over the extended reals.
-/
import proofs.«125087_j79233556677072_2_alg».proof.Defs
import proofs.«125087_j79233556677072_2_alg».proof.Proof.Gen.Kernel
import proofs.«125087_j79233556677072_2_alg».proof.Proof.Gen.Kernel.Skeleton
import proofs.«125087_j79233556677072_2_alg».proof.Proof.Gen.Kernel.Launch
import proofs.«125087_j79233556677072_2_alg».proof.Proof.Gen.Kernel.Points
import proofs.«125087_j79233556677072_2_alg».proof.Proof.Gen.Kernel.Frame
import proofs.«125087_j79233556677072_2_alg».proof.Proof.Gen.KernelIdeal
import proofs.«125087_j79233556677072_2_alg».proof.Proof.Gen.KernelIdeal.Skeleton
import proofs.«125087_j79233556677072_2_alg».proof.Proof.Gen.KernelIdeal.Launch
import proofs.«125087_j79233556677072_2_alg».proof.Proof.Gen.KernelIdeal.Points
import proofs.«125087_j79233556677072_2_alg».proof.Proof.Gen.KernelIdeal.Frame
import proofs.«125087_j79233556677072_2_alg».proof.Proof.Gen.ReferenceIdeal
import proofs.«125087_j79233556677072_2_alg».proof.Proof.Gen.Pre_finite_inputs
import proofs.«125087_j79233556677072_2_alg».proof.Proof.Gen.KernelIdeal.Value
import proofs.«125087_j79233556677072_2_alg».proof.Proof.Gen.ReferenceIdeal.Run
import proofs.«125087_j79233556677072_2_alg».proof.Proof.Gen.ReferenceIdeal.Read
import proofs.«125087_j79233556677072_2_alg».proof.Proof.Field
import proofs.«125087_j79233556677072_2_alg».proof.Proof.Finite
import proofs.«125087_j79233556677072_2_alg».proof.Proof.RefIs
import proofs.«125087_j79233556677072_2_alg».proof.Proof.Blocks
import Idealize.ShloMosaic.Adequacy
import Idealize.ShloMosaic.Init

noncomputable section

namespace Cert.Proof

open Idealize.ShloMosaic Idealize.SL.Sem

/-- The kernel as printed runs to completion and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of whole-array operations: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten on the way to the extended reals. -/
theorem preserves : Cert.preserves_Kernel_KernelIdeal := trivial

/-- From memories that agree on the arguments, every entry of which is finite, the kernel's two result arrays
    end at `du` and `dlam` of the arguments, and so do the reference's: its first result by the rearrangement
    law over finite entries, its second by commuting one product. -/
theorem algebraic : Cert.algebraic_KernelIdeal_ReferenceIdeal := by
  intro m ρ m' ρ' hpre hagree
  refine ⟨_, _, Cert.OdeBlocks.run m ρ, ?_⟩
  refine (θ_run Cert.ReferenceIdeal.defs _ _).mono (fun _ h c => ?_)
    (Cert.ReferenceIdeal.Value.run (F := Ideal) m' ρ')
  obtain ⟨f0, -, f2, f3⟩ := Cert.OdeFinite.finite_of_pre _ _ _ _ _ (hpre c)
  obtain ⟨a0, a1, a2, a3, -⟩ := hagree c
  refine ⟨(h c).1.trans ?_, (h c).2.1.trans ?_, (h c).2.2⟩
  · rw [Cert.ReferenceIdeal.Read.val_main_v9_eq, a0, a2, a3]
    exact Cert.OdeRef.ref_du _ _ _ f0 f2 f3
  · rw [Cert.ReferenceIdeal.Read.val_main_v17_eq, a0, a1, a2, a3]
    exact Cert.OdeRef.ref_dlam _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
